-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S64x4 : Shape := ⟨2, ![64, 4]⟩
abbrev S64x1 : Shape := ⟨2, ![64, 1]⟩
abbrev S32x64 : Shape := ⟨2, ![32, 64]⟩
abbrev S32x1 : Shape := ⟨2, ![32, 1]⟩
abbrev S3x32 : Shape := ⟨2, ![3, 32]⟩
abbrev S3x1 : Shape := ⟨2, ![3, 1]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S64x1 : S_.BroadcastsInDim S64x1 (![] : Fin 0 → Fin S64x1.rank)
  reducesTo_S64x1_S_d0_1 : S64x1.ReducesTo [0, 1] S_
  bcast_S_S32x64 : S_.BroadcastsInDim S32x64 (![] : Fin 0 → Fin S32x64.rank)
  reducesTo_S32x64_S_d0_1 : S32x64.ReducesTo [0, 1] S_
  bcast_S_S32x1 : S_.BroadcastsInDim S32x1 (![] : Fin 0 → Fin S32x1.rank)
  reducesTo_S32x1_S_d0_1 : S32x1.ReducesTo [0, 1] S_
  bcast_S_S3x32 : S_.BroadcastsInDim S3x32 (![] : Fin 0 → Fin S3x32.rank)
  reducesTo_S3x32_S_d0_1 : S3x32.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg4 : FVec F S32x1 .f32) (main_arg5 : FVec F S3x32 .f32) (main_arg6 : FVec F S3x1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S3x32 .f32 := Host.absf main_arg5
  let main_cst_8 : FVec F S_ .f32 := constant S_ .f32 0x7F800000#32
  let main_v25 : FVec F S3x32 .f32 := broadcastInDim S3x32 ![] bcast_S_S3x32 main_cst_8
  let main_v26 : IVec S3x32 1 := cmpf .olt main_v24 main_v25
  let main_c_9 : IVec S_ 1 := constantI S_ 1 1#1
  let main_v27 : IVec S_ 1 := (fun x v => Host.reduce IntOp.andi x v reducesTo_S3x32_S_d0_1 h_S_) main_v26 main_c_9
  let main_v28 : IVec S_ 1 := andi main_v23 main_v27
  let main_v29 : FVec F S3x1 .f32 := Host.absf main_arg6
  let main_cst_10 : FVec F S_ .f32 := constant S_ .f32 0x7F800000#32
  let main_v30 : FVec F S3x1 .f32 := broadcastInDim S3x1 ![] bcast_S_S3x1 main_cst_10
  let main_v31 : IVec S3x1 1 := cmpf .olt main_v29 main_v30
  let main_c_11 : IVec S_ 1 := constantI S_ 1 1#1
  let main_v32 : IVec S_ 1 := (fun x v => Host.reduce IntOp.andi x v reducesTo_S3x1_S_d0_1 h_S_) main_v31 main_c_11
  let main_v33 : IVec S_ 1 := andi main_v28 main_v32
  main_v33

def fn {F : FTy → Type} [FloatOps F] (main_arg0 : FVec F S2097152x4 .f32) (main_arg1 : FVec F S64x4 .f32) (main_arg2 : FVec F S64x1 .f32) (main_arg3 : FVec F S32x64 .f32) (main_arg4 : FVec F S32x1 .f32) (main_arg5 : FVec F S3x32 .f32) (main_arg6 : FVec F S3x1 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S2097152x4 : Shape := ⟨2, ![2097152, 4]⟩
abbrev S64x4 : Shape := ⟨2, ![64, 4]⟩
abbrev S64x1 : Shape := ⟨2, ![64, 1]⟩
abbrev S32x64 : Shape := ⟨2, ![32, 64]⟩
abbrev S32x1 : Shape := ⟨2, ![32, 1]⟩
abbrev S3x32 : Shape := ⟨2, ![3, 32]⟩
abbrev S3x1 : Shape := ⟨2, ![3, 1]⟩
abbrev S4x2097152 : Shape := ⟨2, ![4, 2097152]⟩
abbrev S3x2097152 : Shape := ⟨2, ![3, 2097152]⟩
abbrev S4x131072 : Shape := ⟨2, ![4, 131072]⟩
abbrev S3x131072 : Shape := ⟨2, ![3, 131072]⟩
abbrev S64x131072 : Shape := ⟨2, ![64, 131072]⟩
abbrev S32x131072 : Shape := ⟨2, ![32, 131072]⟩
abbrev S2097152x3 : Shape := ⟨2, ![2097152, 3]⟩

abbrev nBuf : Space → Nat
  | .hbm => 15
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S64x4, .f32⟩
  | .hbm, ⟨2, _⟩ => ⟨S64x1, .f32⟩
  | .hbm, ⟨3, _⟩ => ⟨S32x64, .f32⟩
  | .hbm, ⟨4, _⟩ => ⟨S32x1, .f32⟩
  | .hbm, ⟨5, _⟩ => ⟨S3x32, .f32⟩
  | .hbm, ⟨6, _⟩ => ⟨S3x1, .f32⟩
  | .hbm, ⟨7, _⟩ => ⟨S4x2097152, .f32⟩
  | .hbm, ⟨8, _⟩ => ⟨S64x4, .bf16⟩
  | .hbm, ⟨9, _⟩ => ⟨S32x64, .bf16⟩
  | .hbm, ⟨10, _⟩ => ⟨S3x32, .bf16⟩
  | .hbm, ⟨11, _⟩ => ⟨S64x1, .bf16⟩
  | .hbm, ⟨12, _⟩ => ⟨S32x1, .bf16⟩
  | .hbm, ⟨13, _⟩ => ⟨S3x2097152, .f32⟩
  | .hbm, ⟨14, _⟩ => ⟨S2097152x3, .f32⟩
  | .local _ .vmem, ⟨0, _⟩ => ⟨S4x131072, .f32⟩
  | .local _ .vmem, ⟨1, _⟩ => ⟨S4x131072, .f32⟩
  | .local _ .vmem, ⟨2, _⟩ => ⟨S64x4, .bf16⟩
  | .local _ .vmem, ⟨3, _⟩ => ⟨S64x1, .bf16⟩
  | .local _ .vmem, ⟨4, _⟩ => ⟨S32x64, .bf16⟩
  | .local _ .vmem, ⟨5, _⟩ => ⟨S32x1, .bf16⟩
  | .local _ .vmem, ⟨6, _⟩ => ⟨S3x32, .bf16⟩
  | .local _ .vmem, ⟨7, _⟩ => ⟨S3x1, .f32⟩
  | .local _ .vmem, ⟨8, _⟩ => ⟨S3x131072, .f32⟩
  | .local _ .vmem, ⟨9, _⟩ => ⟨S3x131072, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2097152x4_S4x2097152_1_0 : S2097152x4.Transposes [1, 0] S4x2097152
  bitsLt_bf16_f32 : FTy.bits .bf16 < FTy.bits .f32
  inb_S4x131072_S4x131072_0_0 : ∀ a, (![0, 0] : Fin 2 → Nat) a + S4x131072.size a ≤ S4x131072.size a
  h_S4x131072 : 0 < S4x131072.numel
  shapeCasts_S4x131072_S4x131072 : S4x131072.ShapeCasts S4x131072
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x131072 : S64x1.Broadcasts S64x131072
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x131072 : S32x1.Broadcasts S32x131072
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  broadcasts_S3x1_S3x131072 : S3x1.Broadcasts S3x131072
  inb_S3x131072_S3x131072_0_0 : ∀ a, (![0, 0] : Fin 2 → Nat) a + S3x131072.size a ≤ S3x131072.size a
  h_S3x131072 : 0 < S3x131072.numel
  transposes_S3x2097152_S2097152x3_1_0 : S3x2097152.Transposes [1, 0] S2097152x3
  dot_S64x4_S4x131072_S64x131072_1_0_0_1_n_n_wf : DotDims.WF S64x4 S4x131072 S64x131072 [1] [0] [0] [1] [] []
  dot_S32x64_S64x131072_S32x131072_1_0_0_1_n_n_wf : DotDims.WF S32x64 S64x131072 S32x131072 [1] [0] [0] [1] [] []
  dot_S3x32_S32x131072_S3x131072_1_0_0_1_n_n_wf : DotDims.WF S3x32 S32x131072 S3x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x131072.size a ≤ S4x2097152.size a
  hwx0_0 : ∀ i : grid0.Coords, EltTy.bits .f32 = 32 ∨ (Rect.block (s := S4x2097152) S4x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .bf16 = 32 ∨ (Rect.block (s := S64x4) S64x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .bf16 = 32 ∨ (Rect.block (s := S64x1) S64x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .bf16 = 32 ∨ (Rect.block (s := S32x1) S32x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .bf16 = 32 ∨ (Rect.block (s := S3x32) S3x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x131072.size a ≤ S3x2097152.size a
  hwx0_7 : ∀ i : grid0.Coords, EltTy.bits .f32 = 32 ∨ (Rect.block (s := S3x2097152) S3x131072.size (cc0_transform_7 i) (hinb0_7 i)).WholeWords (EltTy.packing .f32)

variable [Facts₀]

def dot_S64x4_S4x131072_S64x131072_1_0_0_1_n_n : DotDims S64x4 S4x131072 S64x131072 where
  lhsContracting := [1]
  rhsContracting := [0]
  lhsNonContracting := [0]
  rhsNonContracting := [1]
  lhsBatch := []
  rhsBatch := []
  wf := dot_S64x4_S4x131072_S64x131072_1_0_0_1_n_n_wf
def dot_S32x64_S64x131072_S32x131072_1_0_0_1_n_n : DotDims S32x64 S64x131072 S32x131072 where
  lhsContracting := [1]
  rhsContracting := [0]
  lhsNonContracting := [0]
  rhsNonContracting := [1]
  lhsBatch := []
  rhsBatch := []
  wf := dot_S32x64_S64x131072_S32x131072_1_0_0_1_n_n_wf
def dot_S3x32_S32x131072_S3x131072_1_0_0_1_n_n : DotDims S3x32 S32x131072 S3x131072 where
  lhsContracting := [1]
  rhsContracting := [0]
  lhsNonContracting := [0]
  rhsNonContracting := [1]
  lhsBatch := []
  rhsBatch := []
  wf := dot_S3x32_S32x131072_S3x131072_1_0_0_1_n_n_wf

abbrev win0_0 : Pipeline.Window sig grid0 :=
  Pipeline.Window.ofSpec (Memref.whole main_v0) S4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S3x131072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S64x4 : Shape := ⟨2, ![64, 4]⟩
abbrev S64x1 : Shape := ⟨2, ![64, 1]⟩
abbrev S32x64 : Shape := ⟨2, ![32, 64]⟩
abbrev S32x1 : Shape := ⟨2, ![32, 1]⟩
abbrev S3x32 : Shape := ⟨2, ![3, 32]⟩
abbrev S3x1 : Shape := ⟨2, ![3, 1]⟩
abbrev S4x2097152 : Shape := ⟨2, ![4, 2097152]⟩
abbrev S3x2097152 : Shape := ⟨2, ![3, 2097152]⟩
abbrev S2097152x3 : Shape := ⟨2, ![2097152, 3]⟩
abbrev S4x8192 : Shape := ⟨2, ![4, 8192]⟩
abbrev S3x8192 : Shape := ⟨2, ![3, 8192]⟩
abbrev S64x8192 : Shape := ⟨2, ![64, 8192]⟩
abbrev S32x8192 : Shape := ⟨2, ![32, 8192]⟩

abbrev nBuf : Space → Nat
  | .hbm => 10
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S64x4, .f32⟩
  | .hbm, ⟨2, _⟩ => ⟨S64x1, .f32⟩
  | .hbm, ⟨3, _⟩ => ⟨S32x64, .f32⟩
  | .hbm, ⟨4, _⟩ => ⟨S32x1, .f32⟩
  | .hbm, ⟨5, _⟩ => ⟨S3x32, .f32⟩
  | .hbm, ⟨6, _⟩ => ⟨S3x1, .f32⟩
  | .hbm, ⟨7, _⟩ => ⟨S4x2097152, .f32⟩
  | .hbm, ⟨8, _⟩ => ⟨S3x2097152, .f32⟩
  | .hbm, ⟨9, _⟩ => ⟨S2097152x3, .f32⟩
  | .local _ .vmem, ⟨0, _⟩ => ⟨S4x8192, .f32⟩
  | .local _ .vmem, ⟨1, _⟩ => ⟨S4x8192, .f32⟩
  | .local _ .vmem, ⟨2, _⟩ => ⟨S64x4, .f32⟩
  | .local _ .vmem, ⟨3, _⟩ => ⟨S64x1, .f32⟩
  | .local _ .vmem, ⟨4, _⟩ => ⟨S32x64, .f32⟩
  | .local _ .vmem, ⟨5, _⟩ => ⟨S32x1, .f32⟩
  | .local _ .vmem, ⟨6, _⟩ => ⟨S3x32, .f32⟩
  | .local _ .vmem, ⟨7, _⟩ => ⟨S3x1, .f32⟩
  | .local _ .vmem, ⟨8, _⟩ => ⟨S3x8192, .f32⟩
  | .local _ .vmem, ⟨9, _⟩ => ⟨S3x8192, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2097152x4_S4x2097152_1_0 : S2097152x4.Transposes [1, 0] S4x2097152
  transposes_S3x2097152_S2097152x3_1_0 : S3x2097152.Transposes [1, 0] S2097152x3
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S64x4_S64x4_0_0 : ∀ a, (![0, 0] : Fin 2 → Nat) a + S64x4.size a ≤ S64x4.size a
  h_S64x4 : 0 < S64x4.numel
  inb_S64x1_S64x1_0_0 : ∀ a, (![0, 0] : Fin 2 → Nat) a + S64x1.size a ≤ S64x1.size a
  h_S64x1 : 0 < S64x1.numel
  broadcasts_S64x1_S64x8192 : S64x1.Broadcasts S64x8192
  inb_S32x64_S32x64_0_0 : ∀ a, (![0, 0] : Fin 2 → Nat) a + S32x64.size a ≤ S32x64.size a
  h_S32x64 : 0 < S32x64.numel
  inb_S32x1_S32x1_0_0 : ∀ a, (![0, 0] : Fin 2 → Nat) a + S32x1.size a ≤ S32x1.size a
  h_S32x1 : 0 < S32x1.numel
  broadcasts_S32x1_S32x8192 : S32x1.Broadcasts S32x8192
  inb_S3x32_S3x32_0_0 : ∀ a, (![0, 0] : Fin 2 → Nat) a + S3x32.size a ≤ S3x32.size a
  h_S3x32 : 0 < S3x32.numel
  inb_S3x1_S3x1_0_0 : ∀ a, (![0, 0] : Fin 2 → Nat) a + S3x1.size a ≤ S3x1.size a
  h_S3x1 : 0 < S3x1.numel
  broadcasts_S3x1_S3x8192 : S3x1.Broadcasts S3x8192
  inb_S3x8192_S3x8192_0_0 : ∀ a, (![0, 0] : Fin 2 → Nat) a + S3x8192.size a ≤ S3x8192.size a
  h_S3x8192 : 0 < S3x8192.numel
  dot_S64x4_S4x8192_S64x8192_1_0_0_1_n_n_wf : DotDims.WF S64x4 S4x8192 S64x8192 [1] [0] [0] [1] [] []
  dot_S32x64_S64x8192_S32x8192_1_0_0_1_n_n_wf : DotDims.WF S32x64 S64x8192 S32x8192 [1] [0] [0] [1] [] []
  dot_S3x32_S32x8192_S3x8192_1_0_0_1_n_n_wf : DotDims.WF S3x32 S32x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x2097152.size a
  hwx0_0 : ∀ i : grid0.Coords, EltTy.bits .f32 = 32 ∨ (Rect.block (s := S4x2097152) S4x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .f32 = 32 ∨ (Rect.block (s := S3x32) S3x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8192.size a ≤ S3x2097152.size a
  hwx0_7 : ∀ i : grid0.Coords, EltTy.bits .f32 = 32 ∨ (Rect.block (s := S3x2097152) S3x8192.size (cc0_transform_7 i) (hinb0_7 i)).WholeWords (EltTy.packing .f32)

variable [Facts₀]

def dot_S64x4_S4x8192_S64x8192_1_0_0_1_n_n : DotDims S64x4 S4x8192 S64x8192 where
  lhsContracting := [1]
  rhsContracting := [0]
  lhsNonContracting := [0]
  rhsNonContracting := [1]
  lhsBatch := []
  rhsBatch := []
  wf := dot_S64x4_S4x8192_S64x8192_1_0_0_1_n_n_wf
def dot_S32x64_S64x8192_S32x8192_1_0_0_1_n_n : DotDims S32x64 S64x8192 S32x8192 where
  lhsContracting := [1]
  rhsContracting := [0]
  lhsNonContracting := [0]
  rhsNonContracting := [1]
  lhsBatch := []
  rhsBatch := []
  wf := dot_S32x64_S64x8192_S32x8192_1_0_0_1_n_n_wf
def dot_S3x32_S32x8192_S3x8192_1_0_0_1_n_n : DotDims S3x32 S32x8192 S3x8192 where
  lhsContracting := [1]
  rhsContracting := [0]
  lhsNonContracting := [0]
  rhsNonContracting := [1]
  lhsBatch := []
  rhsBatch := []
  wf := dot_S3x32_S32x8192_S3x8192_1_0_0_1_n_n_wf

abbrev win0_0 : Pipeline.Window sig grid0 :=
  Pipeline.Window.ofSpec (Memref.whole main_call0_v0) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S3x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.KernelValue.lean ====
/-
  What the kernel's program leaves in its result, index by index.

  Each grid point t loads columns 131072·t … 131072·t + 131071 of the transposed input and the six whole weight and
  bias arrays, and stores the perceptron of those columns; column by column that is the scalar perceptron of the
  column (LibDense.mlpTile_apply), so the block a point writes back is a block of ONE feature-major function of the
  arrays the region finds. The sixteen blocks tile the [3, 2097152] array, the host transposes it, and a transposed
  input read at (k, n) is the argument at (n, k): the result's row n is the perceptron of the argument's row n.
-/
import proofs.«117078_g2000106437194975_pallasbulk_429_35_alg».proof.Proof.Gen.KernelIdeal.Frame
import proofs.«117078_g2000106437194975_pallasbulk_429_35_alg».proof.Proof.LibDense
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's one stored value is the tile perceptron of its loads: same-shape casts and changes of format drop out. -/
theorem pay_eq (x0 : Vec Ideal S4x131072 .f32) (x1 : Vec Ideal S64x4 .bf16) (x2 : Vec Ideal S64x1 .bf16)
    (x3 : Vec Ideal S32x64 .bf16) (x4 : Vec Ideal S32x1 .bf16) (x5 : Vec Ideal S3x32 .bf16) (x6 : Vec Ideal S3x1 .f32) :
    k0_pay1 x0 x1 x2 x3 x4 x5 x6
      = LibDense.mlpTile (T := 131072) dot_S64x4_S4x131072_S64x131072_1_0_0_1_n_n dot_S32x64_S64x131072_S32x131072_1_0_0_1_n_n
          dot_S3x32_S32x131072_S3x131072_1_0_0_1_n_n Facts₀.broadcasts_S64x1_S64x131072 Facts₀.broadcasts_S32x1_S32x131072 Facts₀.broadcasts_S3x1_S3x131072
          (Ideal.ofBits .bf16 0x0000#16) (Ideal.ofBits .bf16 0x0000#16) x0 x1 x2 x3 x4 x5 x6 := by
  unfold k0_pay1 LibDense.mlpTile
  simp only [shapeCast_self]
  rfl

/-! ## The arrays as the region finds them -/

/-- The transposed input the region's first window stages. -/
theorem V_x (c : Dev nD) : (V m c main_v0 : S4x2097152.Idx → EReal)
    = transpose S4x2097152 [1, 0] (m ((c : Thread nD τ).loc main_arg0)) Facts₀.transposes_S2097152x4_S4x2097152_1_0 := by
  show StableHlo.after hostOps0 (fun b => m (c, b)) (Proc.devRef .tc main_v0) = _
  after_results <;> rfl

/-- A weight or bias array re-held in the shorter format is the argument: a change of format is the identity. -/
theorem V_w1 (c : Dev nD) : (V m c main_v1 : S64x4.Idx → EReal) = m ((c : Thread nD τ).loc main_arg1) := by
  show StableHlo.after hostOps0 (fun b => m (c, b)) (Proc.devRef .tc main_v1) = _
  after_results <;> rfl
theorem V_b1 (c : Dev nD) : (V m c main_v4 : S64x1.Idx → EReal) = m ((c : Thread nD τ).loc main_arg2) := by
  show StableHlo.after hostOps0 (fun b => m (c, b)) (Proc.devRef .tc main_v4) = _
  after_results <;> rfl
theorem V_w2 (c : Dev nD) : (V m c main_v2 : S32x64.Idx → EReal) = m ((c : Thread nD τ).loc main_arg3) := by
  show StableHlo.after hostOps0 (fun b => m (c, b)) (Proc.devRef .tc main_v2) = _
  after_results <;> rfl
theorem V_b2 (c : Dev nD) : (V m c main_v5 : S32x1.Idx → EReal) = m ((c : Thread nD τ).loc main_arg4) := by
  show StableHlo.after hostOps0 (fun b => m (c, b)) (Proc.devRef .tc main_v5) = _
  after_results <;> rfl
theorem V_w3 (c : Dev nD) : (V m c main_v3 : S3x32.Idx → EReal) = m ((c : Thread nD τ).loc main_arg5) := by
  show StableHlo.after hostOps0 (fun b => m (c, b)) (Proc.devRef .tc main_v3) = _
  after_results <;> rfl

/-! ## The windows' blocks -/

/-- The printed index maps over the sixteen points: the input's and the output's blocks move along the batch axis with
    the point, every weight and bias window stays on its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The input window's block at point t, at feature i and lane q, is the transposed input at column 131072·t + q. -/
theorem blk_x (c : Dev nD) (t : Fin cfg0.N) (i : Fin 4) (q : Fin 131072) (n : Fin 2097152) (hn : n.val = t.val * 131072 + q.val) :
    (iblk m c 0 t : Vec Ideal S4x131072 .f32) (ix2 i q) = (V m c main_v0 : S4x2097152.Idx → EReal) (ix2 i n) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 4 + 1 * i.val = i.val; rw [e0]; omega
  | ⟨1, _⟩ => show win0_0.index t (1 : Fin 2) * 131072 + 1 * q.val = n.val; rw [e1, hn]; omega

/-- A window that stays on block (0, 0) of an array of its own size holds the whole array. -/
theorem blk_w1 (c : Dev nD) (t : Fin cfg0.N) : (iblk m c 1 t : Vec Ideal S64x4 .bf16) = (V m c main_v1 : S64x4.Idx → EReal) := by
  obtain ⟨-, -, e0, e1, -⟩ := idx_facts t
  funext j
  unfold iblk
  rw [View.read_apply]
  show V m c main_v1 _ = V m c main_v1 _
  refine congrArg (V m c main_v1) (funext fun a => Fin.ext ?_)
  match a with
  | ⟨0, _⟩ => show win0_1.index t (0 : Fin 2) * 64 + 1 * (j 0).val = (j 0).val; rw [e0]; omega
  | ⟨1, _⟩ => show win0_1.index t (1 : Fin 2) * 4 + 1 * (j 1).val = (j 1).val; rw [e1]; omega
theorem blk_b1 (c : Dev nD) (t : Fin cfg0.N) : (iblk m c 2 t : Vec Ideal S64x1 .bf16) = (V m c main_v4 : S64x1.Idx → EReal) := by
  obtain ⟨-, -, -, -, e0, e1, -⟩ := idx_facts t
  funext j
  unfold iblk
  rw [View.read_apply]
  show V m c main_v4 _ = V m c main_v4 _
  refine congrArg (V m c main_v4) (funext fun a => Fin.ext ?_)
  match a with
  | ⟨0, _⟩ => show win0_2.index t (0 : Fin 2) * 64 + 1 * (j 0).val = (j 0).val; rw [e0]; omega
  | ⟨1, _⟩ => show win0_2.index t (1 : Fin 2) * 1 + 1 * (j 1).val = (j 1).val; rw [e1]; omega
theorem blk_w2 (c : Dev nD) (t : Fin cfg0.N) : (iblk m c 3 t : Vec Ideal S32x64 .bf16) = (V m c main_v2 : S32x64.Idx → EReal) := by
  obtain ⟨-, -, -, -, -, -, e0, e1, -⟩ := idx_facts t
  funext j
  unfold iblk
  rw [View.read_apply]
  show V m c main_v2 _ = V m c main_v2 _
  refine congrArg (V m c main_v2) (funext fun a => Fin.ext ?_)
  match a with
  | ⟨0, _⟩ => show win0_3.index t (0 : Fin 2) * 32 + 1 * (j 0).val = (j 0).val; rw [e0]; omega
  | ⟨1, _⟩ => show win0_3.index t (1 : Fin 2) * 64 + 1 * (j 1).val = (j 1).val; rw [e1]; omega
theorem blk_b2 (c : Dev nD) (t : Fin cfg0.N) : (iblk m c 4 t : Vec Ideal S32x1 .bf16) = (V m c main_v5 : S32x1.Idx → EReal) := by
  obtain ⟨-, -, -, -, -, -, -, -, e0, e1, -⟩ := idx_facts t
  funext j
  unfold iblk
  rw [View.read_apply]
  show V m c main_v5 _ = V m c main_v5 _
  refine congrArg (V m c main_v5) (funext fun a => Fin.ext ?_)
  match a with
  | ⟨0, _⟩ => show win0_4.index t (0 : Fin 2) * 32 + 1 * (j 0).val = (j 0).val; rw [e0]; omega
  | ⟨1, _⟩ => show win0_4.index t (1 : Fin 2) * 1 + 1 * (j 1).val = (j 1).val; rw [e1]; omega
theorem blk_w3 (c : Dev nD) (t : Fin cfg0.N) : (iblk m c 5 t : Vec Ideal S3x32 .bf16) = (V m c main_v3 : S3x32.Idx → EReal) := by
  obtain ⟨-, -, -, -, -, -, -, -, -, -, e0, e1, -⟩ := idx_facts t
  funext j
  unfold iblk
  rw [View.read_apply]
  show V m c main_v3 _ = V m c main_v3 _
  refine congrArg (V m c main_v3) (funext fun a => Fin.ext ?_)
  match a with
  | ⟨0, _⟩ => show win0_5.index t (0 : Fin 2) * 3 + 1 * (j 0).val = (j 0).val; rw [e0]; omega
  | ⟨1, _⟩ => show win0_5.index t (1 : Fin 2) * 32 + 1 * (j 1).val = (j 1).val; rw [e1]; omega
theorem blk_b3 (c : Dev nD) (t : Fin cfg0.N) : (iblk m c 6 t : Vec Ideal S3x1 .f32) = (V m c main_arg6 : S3x1.Idx → EReal) := by
  obtain ⟨-, -, -, -, -, -, -, -, -, -, -, -, e0, e1, -⟩ := idx_facts t
  funext j
  unfold iblk
  rw [View.read_apply]
  show V m c main_arg6 _ = V m c main_arg6 _
  refine congrArg (V m c main_arg6) (funext fun a => Fin.ext ?_)
  match a with
  | ⟨0, _⟩ => show win0_6.index t (0 : Fin 2) * 3 + 1 * (j 0).val = (j 0).val; rw [e0]; omega
  | ⟨1, _⟩ => show win0_6.index t (1 : Fin 2) * 1 + 1 * (j 1).val = (j 1).val; rw [e1]; omega

/-! ## What a point writes back, and the array after the run -/

/-- The region's result as one function of the arrays it finds: feature major, column n the perceptron of column n. -/
abbrev GT (c : Dev nD) : S3x2097152.Idx → EReal :=
  LibDense.mlpOutT (V m c main_v0) (V m c main_v1) (V m c main_v4) (V m c main_v2) (V m c main_v5) (V m c main_v3) (V m c main_arg6)

/-- Point t writes back block t of that function. -/
theorem flushed_eq (c : Dev nD) (t : Fin cfg0.N) :
    (dats m 0 c).flushed 7 t = ((cfg0.win 7).blk t).view.read (Elt Ideal) (GT m c) := by
  have hN : cfg0.N = 16 := N_0
  obtain ⟨-, -, -, -, -, -, -, -, -, -, -, -, -, -, h0, h1⟩ := idx_facts t
  show (cfg0.win 7).cut (grid0.coords t) ((dats m 0 c).after 7 t) = _
  rw [after0_7]
  unfold out0_7
  rw [View.canon_unit_zero hz]
  simp only [View.ld_unit_zero (S := S4x131072) hz, View.ld_unit_zero (S := S64x4) hz, View.ld_unit_zero (S := S64x1) hz,
    View.ld_unit_zero (S := S32x64) hz, View.ld_unit_zero (S := S32x1) hz, View.ld_unit_zero (S := S3x32) hz,
    View.ld_unit_zero (S := S3x1) hz]
  rw [pay_eq, blk_w1, blk_b1, blk_w2, blk_b2, blk_w3, blk_b3]
  funext j
  obtain ⟨p, q, rfl⟩ : ∃ (p : Fin 3) (q : Fin 131072), j = ix2 p q := ⟨j 0, j 1, eq_ix2 j⟩
  have ht : t.val < 16 := hN ▸ t.isLt
  have hq : q.val < 131072 := q.isLt
  have he : ((cfg0.win 7).blk t).view.emb (ix2 p q) = (ix2 p (⟨t.val * 131072 + q.val, by omega⟩ : Fin 2097152) : S3x2097152.Idx) := by
    funext a
    apply Fin.ext
    match a with
    | ⟨0, _⟩ => show win0_7.index t (0 : Fin 2) * 3 + 1 * p.val = p.val; rw [h0]; omega
    | ⟨1, _⟩ => show win0_7.index t (1 : Fin 2) * 131072 + 1 * q.val = t.val * 131072 + q.val; rw [h1]; omega
  show LibDense.mlpTile _ _ _ _ _ _ _ _ (iblk m c 0 t) (V m c main_v1) (V m c main_v4) (V m c main_v2) (V m c main_v5) (V m c main_v3) (V m c main_arg6) (ix2 p q)
    = GT m c (((cfg0.win 7).blk t).view.emb (ix2 p q))
  rw [he]
  refine (LibDense.mlpTile_apply dot_S64x4_S4x131072_S64x131072_1_0_0_1_n_n dot_S32x64_S64x131072_S32x131072_1_0_0_1_n_n
    dot_S3x32_S32x131072_S3x131072_1_0_0_1_n_n rfl rfl rfl _ _ _ _ _ LibDense.ofBits_zero_bf16 LibDense.ofBits_zero_bf16
    _ _ _ _ _ _ _ p q).trans ?_
  show _ = LibDense.mlpAt _ _ _ _ _ _ _ p
  refine congrArg (fun f => LibDense.mlpAt (V m c main_v1) (V m c main_v4) (V m c main_v2) (V m c main_v5) (V m c main_v3) (V m c main_arg6) f p) (funext fun i => ?_)
  exact blk_x m c t i q _ rfl

/-- An index of the array lies in point t's block iff each coordinate lies in the block's range on its axis. -/
theorem mem_blk (t : Fin cfg0.N) (i : S3x2097152.Idx) :
    i ∈ ((cfg0.win 7).blk t).view.set ↔ ∀ a : Fin 2, win0_7.index t a * S3x131072.size a ≤ (i a).val ∧ (i a).val < win0_7.index t a * S3x131072.size a + S3x131072.size a := by
  show i ∈ ((View.whole main_v6).slice (win0_7.rect t)).set ↔ _
  rw [View.set_slice_whole, Rect.mem_set_unit]
  exact Iff.rfl

/-- The sixteen blocks cover the array: column n lies in the block of point n / 131072. -/
theorem cover (i : S3x2097152.Idx) : ∃ t : Fin cfg0.N, (cfg0.win 7).flush t = true ∧ i ∈ ((cfg0.win 7).blk t).view.set := by
  have hN : cfg0.N = 16 := N_0
  have hi0 : (i 0).val < 3 := (i 0).isLt
  have hi1 : (i 1).val < 2097152 := (i 1).isLt
  have hlt : (i 1).val / 131072 < cfg0.N := by rw [hN]; omega
  obtain ⟨-, -, -, -, -, -, -, -, -, -, -, -, -, -, h0, h1⟩ := idx_facts ⟨(i 1).val / 131072, hlt⟩
  refine ⟨⟨(i 1).val / 131072, hlt⟩, flush0_7 _, ?_⟩
  rw [mem_blk]
  intro a
  match a with
  | ⟨0, _⟩ =>
    show win0_7.index ⟨(i 1).val / 131072, hlt⟩ (0 : Fin 2) * 3 ≤ (i 0).val ∧ (i 0).val < win0_7.index ⟨(i 1).val / 131072, hlt⟩ (0 : Fin 2) * 3 + 3
    rw [h0]; omega
  | ⟨1, _⟩ =>
    show win0_7.index ⟨(i 1).val / 131072, hlt⟩ (1 : Fin 2) * 131072 ≤ (i 1).val ∧ (i 1).val < win0_7.index ⟨(i 1).val / 131072, hlt⟩ (1 : Fin 2) * 131072 + 131072
    rw [h1]
    show (i 1).val / 131072 * 131072 ≤ (i 1).val ∧ (i 1).val < (i 1).val / 131072 * 131072 + 131072
    omega

/-- So the region's result array ends holding that function. -/
theorem final (c : Dev nD) : (dats m 0 c).arrAt 7 cfg0.N = GT m c :=
  (dats m 0 c).arrAt_eq_of_cover 7 (GT m c) (fun t _ => flushed_eq m c t) cover

/-! ## The host's transpose, and the run -/

/-- The program's result: row n is the perceptron of the argument's row n. -/
abbrev result (c : Dev nD) : S2097152x3.Idx → EReal :=
  LibDense.mlpOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6) = GT m c :=
    (Pipeline.withArrays_arr spec0 launch0.win.arr_inj c _ _ 7).trans (final m c)
  rw [hw]
  funext i
  obtain ⟨n, k, rfl⟩ : ∃ (n : Fin 2097152) (k : Fin 3), i = ix2 n k := ⟨i 0, i 1, eq_ix2 i⟩
  refine (transpose_ix2_apply (GT m c) _ n k).trans ?_
  show LibDense.mlpAt (V m c main_v1) (V m c main_v4) (V m c main_v2) (V m c main_v5) (V m c main_v3) (V m c main_arg6) (fun j => (V m c main_v0 : S4x2097152.Idx → EReal) (ix2 j n)) k
    = LibDense.mlpAt (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (fun j => (m ((c : Thread nD τ).loc main_arg0) : S2097152x4.Idx → EReal) (ix2 n j)) k
  rw [V_w1, V_b1, V_w2, V_b2, V_w3, V_main_arg6, V_x]
  refine congrArg (fun f => LibDense.mlpAt (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) f k) (funext fun j => ?_)
  exact transpose_ix2_apply _ _ j n

/-- The run, read: the result at the perceptron of the argument rows, every argument as launched. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v7 (Pipeline.mem_restRefs_of main_v7 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end Cert.KernelIdeal.Val

end
-- ==== Proof.ReferenceValue.lean ====
/-
  What the reference's program leaves in its result, index by index.

  The reference is itself a pipelined perceptron: each of its 256 grid points loads columns 8192·t … 8192·t + 8191 of
  the transposed input and the six whole weight and bias arrays, and stores the perceptron of those columns. Column by
  column that is the scalar perceptron of the column (LibDense.mlpTile_apply), so the block a point writes back is a
  block of ONE feature-major function of the arrays the region finds; the 256 blocks tile the [3, 2097152] array, the
  host transposes it, and a transposed input read at (k, n) is the argument at (n, k): the result's row n is the
  perceptron of the argument's row n.
-/
import proofs.«117078_g2000106437194975_pallasbulk_429_35_alg».proof.Proof.Gen.ReferenceIdeal.Frame
import proofs.«117078_g2000106437194975_pallasbulk_429_35_alg».proof.Proof.LibDense
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Val

open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's one stored value is the tile perceptron of its loads: the same-shape cast drops out. -/
theorem pay_eq (x0 : Vec Ideal S4x8192 .f32) (x1 : Vec Ideal S64x4 .f32) (x2 : Vec Ideal S64x1 .f32)
    (x3 : Vec Ideal S32x64 .f32) (x4 : Vec Ideal S32x1 .f32) (x5 : Vec Ideal S3x32 .f32) (x6 : Vec Ideal S3x1 .f32) :
    k0_pay1 x0 x1 x2 x3 x4 x5 x6
      = LibDense.mlpTile (T := 8192) dot_S64x4_S4x8192_S64x8192_1_0_0_1_n_n dot_S32x64_S64x8192_S32x8192_1_0_0_1_n_n
          dot_S3x32_S32x8192_S3x8192_1_0_0_1_n_n Facts₀.broadcasts_S64x1_S64x8192 Facts₀.broadcasts_S32x1_S32x8192 Facts₀.broadcasts_S3x1_S3x8192
          (Ideal.ofBits .f32 0x00000000#32) (Ideal.ofBits .f32 0x00000000#32) x0 x1 x2 x3 x4 x5 x6 := by
  unfold k0_pay1 LibDense.mlpTile
  simp only [shapeCast_self]
  rfl

/-! ## The arrays as the region finds them -/

/-- The transposed input the region's first window stages. -/
theorem V_x (c : Dev nD) : (V m c main_call0_v0 : S4x2097152.Idx → EReal)
    = transpose S4x2097152 [1, 0] (m ((c : Thread nD τ).loc main_arg0)) Facts₀.transposes_S2097152x4_S4x2097152_1_0 := by
  show StableHlo.after hostOps0 (fun b => m (c, b)) (Proc.devRef .tc main_call0_v0) = _
  after_results <;> rfl

/-! ## The windows' blocks -/

/-- The printed index maps over the 256 points: the input's and the output's blocks move along the batch axis with
    the point, every weight and bias window stays on its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The input window's block at point t, at feature i and lane q, is the transposed input at column 8192·t + q. -/
theorem blk_x (c : Dev nD) (t : Fin cfg0.N) (i : Fin 4) (q : Fin 8192) (n : Fin 2097152) (hn : n.val = t.val * 8192 + q.val) :
    (iblk m c 0 t : Vec Ideal S4x8192 .f32) (ix2 i q) = (V m c main_call0_v0 : S4x2097152.Idx → EReal) (ix2 i n) := by
  obtain ⟨e0, e1, -⟩ := idx_facts t
  unfold iblk
  rw [View.read_apply]
  show V m c main_call0_v0 _ = V m c main_call0_v0 _
  refine congrArg (V m c main_call0_v0) (funext fun a => Fin.ext ?_)
  match a with
  | ⟨0, _⟩ => show win0_0.index t (0 : Fin 2) * 4 + 1 * i.val = i.val; rw [e0]; omega
  | ⟨1, _⟩ => show win0_0.index t (1 : Fin 2) * 8192 + 1 * q.val = n.val; rw [e1, hn]; omega

/-- A window that stays on block (0, 0) of an array of its own size holds the whole array. -/
theorem blk_w1 (c : Dev nD) (t : Fin cfg0.N) : (iblk m c 1 t : Vec Ideal S64x4 .f32) = (V m c main_arg1 : S64x4.Idx → EReal) := by
  obtain ⟨-, -, e0, e1, -⟩ := idx_facts t
  funext j
  unfold iblk
  rw [View.read_apply]
  show V m c main_arg1 _ = V m c main_arg1 _
  refine congrArg (V m c main_arg1) (funext fun a => Fin.ext ?_)
  match a with
  | ⟨0, _⟩ => show win0_1.index t (0 : Fin 2) * 64 + 1 * (j 0).val = (j 0).val; rw [e0]; omega
  | ⟨1, _⟩ => show win0_1.index t (1 : Fin 2) * 4 + 1 * (j 1).val = (j 1).val; rw [e1]; omega
theorem blk_b1 (c : Dev nD) (t : Fin cfg0.N) : (iblk m c 2 t : Vec Ideal S64x1 .f32) = (V m c main_arg2 : S64x1.Idx → EReal) := by
  obtain ⟨-, -, -, -, e0, e1, -⟩ := idx_facts t
  funext j
  unfold iblk
  rw [View.read_apply]
  show V m c main_arg2 _ = V m c main_arg2 _
  refine congrArg (V m c main_arg2) (funext fun a => Fin.ext ?_)
  match a with
  | ⟨0, _⟩ => show win0_2.index t (0 : Fin 2) * 64 + 1 * (j 0).val = (j 0).val; rw [e0]; omega
  | ⟨1, _⟩ => show win0_2.index t (1 : Fin 2) * 1 + 1 * (j 1).val = (j 1).val; rw [e1]; omega
theorem blk_w2 (c : Dev nD) (t : Fin cfg0.N) : (iblk m c 3 t : Vec Ideal S32x64 .f32) = (V m c main_arg3 : S32x64.Idx → EReal) := by
  obtain ⟨-, -, -, -, -, -, e0, e1, -⟩ := idx_facts t
  funext j
  unfold iblk
  rw [View.read_apply]
  show V m c main_arg3 _ = V m c main_arg3 _
  refine congrArg (V m c main_arg3) (funext fun a => Fin.ext ?_)
  match a with
  | ⟨0, _⟩ => show win0_3.index t (0 : Fin 2) * 32 + 1 * (j 0).val = (j 0).val; rw [e0]; omega
  | ⟨1, _⟩ => show win0_3.index t (1 : Fin 2) * 64 + 1 * (j 1).val = (j 1).val; rw [e1]; omega
theorem blk_b2 (c : Dev nD) (t : Fin cfg0.N) : (iblk m c 4 t : Vec Ideal S32x1 .f32) = (V m c main_arg4 : S32x1.Idx → EReal) := by
  obtain ⟨-, -, -, -, -, -, -, -, e0, e1, -⟩ := idx_facts t
  funext j
  unfold iblk
  rw [View.read_apply]
  show V m c main_arg4 _ = V m c main_arg4 _
  refine congrArg (V m c main_arg4) (funext fun a => Fin.ext ?_)
  match a with
  | ⟨0, _⟩ => show win0_4.index t (0 : Fin 2) * 32 + 1 * (j 0).val = (j 0).val; rw [e0]; omega
  | ⟨1, _⟩ => show win0_4.index t (1 : Fin 2) * 1 + 1 * (j 1).val = (j 1).val; rw [e1]; omega
theorem blk_w3 (c : Dev nD) (t : Fin cfg0.N) : (iblk m c 5 t : Vec Ideal S3x32 .f32) = (V m c main_arg5 : S3x32.Idx → EReal) := by
  obtain ⟨-, -, -, -, -, -, -, -, -, -, e0, e1, -⟩ := idx_facts t
  funext j
  unfold iblk
  rw [View.read_apply]
  show V m c main_arg5 _ = V m c main_arg5 _
  refine congrArg (V m c main_arg5) (funext fun a => Fin.ext ?_)
  match a with
  | ⟨0, _⟩ => show win0_5.index t (0 : Fin 2) * 3 + 1 * (j 0).val = (j 0).val; rw [e0]; omega
  | ⟨1, _⟩ => show win0_5.index t (1 : Fin 2) * 32 + 1 * (j 1).val = (j 1).val; rw [e1]; omega
theorem blk_b3 (c : Dev nD) (t : Fin cfg0.N) : (iblk m c 6 t : Vec Ideal S3x1 .f32) = (V m c main_arg6 : S3x1.Idx → EReal) := by
  obtain ⟨-, -, -, -, -, -, -, -, -, -, -, -, e0, e1, -⟩ := idx_facts t
  funext j
  unfold iblk
  rw [View.read_apply]
  show V m c main_arg6 _ = V m c main_arg6 _
  refine congrArg (V m c main_arg6) (funext fun a => Fin.ext ?_)
  match a with
  | ⟨0, _⟩ => show win0_6.index t (0 : Fin 2) * 3 + 1 * (j 0).val = (j 0).val; rw [e0]; omega
  | ⟨1, _⟩ => show win0_6.index t (1 : Fin 2) * 1 + 1 * (j 1).val = (j 1).val; rw [e1]; omega

/-! ## What a point writes back, and the array after the run -/

/-- The region's result as one function of the arrays it finds: feature major, column n the perceptron of column n. -/
abbrev GT (c : Dev nD) : S3x2097152.Idx → EReal :=
  LibDense.mlpOutT (V m c main_call0_v0) (V m c main_arg1) (V m c main_arg2) (V m c main_arg3) (V m c main_arg4) (V m c main_arg5) (V m c main_arg6)

/-- Point t writes back block t of that function. -/
theorem flushed_eq (c : Dev nD) (t : Fin cfg0.N) :
    (dats m 0 c).flushed 7 t = ((cfg0.win 7).blk t).view.read (Elt Ideal) (GT m c) := by
  have hN : cfg0.N = 256 := N_0
  obtain ⟨-, -, -, -, -, -, -, -, -, -, -, -, -, -, h0, h1⟩ := idx_facts t
  show (cfg0.win 7).cut (grid0.coords t) ((dats m 0 c).after 7 t) = _
  rw [after0_7]
  unfold out0_7
  rw [View.canon_unit_zero hz]
  simp only [View.ld_unit_zero (S := S4x8192) hz, View.ld_unit_zero (S := S64x4) hz, View.ld_unit_zero (S := S64x1) hz,
    View.ld_unit_zero (S := S32x64) hz, View.ld_unit_zero (S := S32x1) hz, View.ld_unit_zero (S := S3x32) hz,
    View.ld_unit_zero (S := S3x1) hz]
  rw [pay_eq, blk_w1, blk_b1, blk_w2, blk_b2, blk_w3, blk_b3]
  funext j
  obtain ⟨p, q, rfl⟩ : ∃ (p : Fin 3) (q : Fin 8192), j = ix2 p q := ⟨j 0, j 1, eq_ix2 j⟩
  have ht : t.val < 256 := hN ▸ t.isLt
  have hq : q.val < 8192 := q.isLt
  have he : ((cfg0.win 7).blk t).view.emb (ix2 p q) = (ix2 p (⟨t.val * 8192 + q.val, by omega⟩ : Fin 2097152) : S3x2097152.Idx) := by
    funext a
    apply Fin.ext
    match a with
    | ⟨0, _⟩ => show win0_7.index t (0 : Fin 2) * 3 + 1 * p.val = p.val; rw [h0]; omega
    | ⟨1, _⟩ => show win0_7.index t (1 : Fin 2) * 8192 + 1 * q.val = t.val * 8192 + q.val; rw [h1]; omega
  show LibDense.mlpTile _ _ _ _ _ _ _ _ (iblk m c 0 t) (V m c main_arg1) (V m c main_arg2) (V m c main_arg3) (V m c main_arg4) (V m c main_arg5) (V m c main_arg6) (ix2 p q)
    = GT m c (((cfg0.win 7).blk t).view.emb (ix2 p q))
  rw [he]
  refine (LibDense.mlpTile_apply dot_S64x4_S4x8192_S64x8192_1_0_0_1_n_n dot_S32x64_S64x8192_S32x8192_1_0_0_1_n_n
    dot_S3x32_S32x8192_S3x8192_1_0_0_1_n_n rfl rfl rfl _ _ _ _ _ Ideal.ofBits_zero_f32 Ideal.ofBits_zero_f32
    _ _ _ _ _ _ _ p q).trans ?_
  show _ = LibDense.mlpAt _ _ _ _ _ _ _ p
  refine congrArg (fun f => LibDense.mlpAt (V m c main_arg1) (V m c main_arg2) (V m c main_arg3) (V m c main_arg4) (V m c main_arg5) (V m c main_arg6) f p) (funext fun i => ?_)
  exact blk_x m c t i q _ rfl

/-- An index of the array lies in point t's block iff each coordinate lies in the block's range on its axis. -/
theorem mem_blk (t : Fin cfg0.N) (i : S3x2097152.Idx) :
    i ∈ ((cfg0.win 7).blk t).view.set ↔ ∀ a : Fin 2, win0_7.index t a * S3x8192.size a ≤ (i a).val ∧ (i a).val < win0_7.index t a * S3x8192.size a + S3x8192.size a := by
  show i ∈ ((View.whole main_call0_v1).slice (win0_7.rect t)).set ↔ _
  rw [View.set_slice_whole, Rect.mem_set_unit]
  exact Iff.rfl

/-- The 256 blocks cover the array: column n lies in the block of point n / 8192. -/
theorem cover (i : S3x2097152.Idx) : ∃ t : Fin cfg0.N, (cfg0.win 7).flush t = true ∧ i ∈ ((cfg0.win 7).blk t).view.set := by
  have hN : cfg0.N = 256 := N_0
  have hi0 : (i 0).val < 3 := (i 0).isLt
  have hi1 : (i 1).val < 2097152 := (i 1).isLt
  have hlt : (i 1).val / 8192 < cfg0.N := by rw [hN]; omega
  obtain ⟨-, -, -, -, -, -, -, -, -, -, -, -, -, -, h0, h1⟩ := idx_facts ⟨(i 1).val / 8192, hlt⟩
  refine ⟨⟨(i 1).val / 8192, hlt⟩, flush0_7 _, ?_⟩
  rw [mem_blk]
  intro a
  match a with
  | ⟨0, _⟩ =>
    show win0_7.index ⟨(i 1).val / 8192, hlt⟩ (0 : Fin 2) * 3 ≤ (i 0).val ∧ (i 0).val < win0_7.index ⟨(i 1).val / 8192, hlt⟩ (0 : Fin 2) * 3 + 3
    rw [h0]; omega
  | ⟨1, _⟩ =>
    show win0_7.index ⟨(i 1).val / 8192, hlt⟩ (1 : Fin 2) * 8192 ≤ (i 1).val ∧ (i 1).val < win0_7.index ⟨(i 1).val / 8192, hlt⟩ (1 : Fin 2) * 8192 + 8192
    rw [h1]
    show (i 1).val / 8192 * 8192 ≤ (i 1).val ∧ (i 1).val < (i 1).val / 8192 * 8192 + 8192
    omega

/-- So the region's result array ends holding that function. -/
theorem final (c : Dev nD) : (dats m 0 c).arrAt 7 cfg0.N = GT m c :=
  (dats m 0 c).arrAt_eq_of_cover 7 (GT m c) (fun t _ => flushed_eq m c t) cover

/-! ## The host's transpose, and the run -/

/-- The program's result: row n is the perceptron of the argument's row n. -/
abbrev result (c : Dev nD) : S2097152x3.Idx → EReal :=
  LibDense.mlpOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v1) = GT m c :=
    (Pipeline.withArrays_arr spec0 launch0.win.arr_inj c _ _ 7).trans (final m c)
  rw [hw]
  funext i
  obtain ⟨n, k, rfl⟩ : ∃ (n : Fin 2097152) (k : Fin 3), i = ix2 n k := ⟨i 0, i 1, eq_ix2 i⟩
  refine (transpose_ix2_apply (GT m c) _ n k).trans ?_
  show LibDense.mlpAt (V m c main_arg1) (V m c main_arg2) (V m c main_arg3) (V m c main_arg4) (V m c main_arg5) (V m c main_arg6) (fun j => (V m c main_call0_v0 : S4x2097152.Idx → EReal) (ix2 j n)) k
    = LibDense.mlpAt (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (fun j => (m ((c : Thread nD τ).loc main_arg0) : S2097152x4.Idx → EReal) (ix2 n j)) k
  rw [V_main_arg1, V_main_arg2, V_main_arg3, V_main_arg4, V_main_arg5, V_main_arg6, V_x]
  refine congrArg (fun f => LibDense.mlpAt (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) f k) (funext fun j => ?_)
  exact transpose_ix2_apply _ _ j n

/-- The run, read: the result at the perceptron of the argument rows, every argument as launched. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ReferenceIdeal.Val

end
-- ==== Proof.lean ====
/-
  The kernel and the reference are the same three-layer perceptron, pipelined over the batch in tiles of different
  widths (131072 columns in sixteen steps against 8192 columns in 256 steps), the kernel holding weights and hidden
  activations in a shorter format. Over the extended reals a change of format is the identity and a layer's value in
  one column depends on that column alone, so both programs leave, in row n of the result, the perceptron of row n of
  the input (LibDense.mlpOut of the seven arguments): KernelValue.lean and ReferenceValue.lean read that off each
  program's run, and here the two runs are set side by side. No operation was rewritten by the idealization, so there
  is nothing to preserve, and no law of arithmetic joins the two sides: they are one expression, column by column, so
  the finiteness of the inputs is never used.
-/
import proofs.«117078_g2000106437194975_pallasbulk_429_35_alg».proof.Defs
import proofs.«117078_g2000106437194975_pallasbulk_429_35_alg».proof.Proof.Gen.Kernel
import proofs.«117078_g2000106437194975_pallasbulk_429_35_alg».proof.Proof.Gen.Kernel.Frame
import proofs.«117078_g2000106437194975_pallasbulk_429_35_alg».proof.Proof.Gen.KernelIdeal
import proofs.«117078_g2000106437194975_pallasbulk_429_35_alg».proof.Proof.Gen.KernelIdeal.Frame
import proofs.«117078_g2000106437194975_pallasbulk_429_35_alg».proof.Proof.Gen.ReferenceIdeal
import proofs.«117078_g2000106437194975_pallasbulk_429_35_alg».proof.Proof.Gen.ReferenceIdeal.Frame
import proofs.«117078_g2000106437194975_pallasbulk_429_35_alg».proof.Proof.Gen.Pre_finite_inputs
import proofs.«117078_g2000106437194975_pallasbulk_429_35_alg».proof.Proof.KernelValue
import proofs.«117078_g2000106437194975_pallasbulk_429_35_alg».proof.Proof.ReferenceValue

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Both programs end with row n of the result at the perceptron of row n of the input, and the arguments agree. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Val.run m' ρ')
  obtain ⟨e0, e1, e2, e3, e4, e5, e6⟩ := hagree c
  show LibDense.mlpOut _ _ _ _ _ _ _ = LibDense.mlpOut _ _ _ _ _ _ _
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
